-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x256 .f32) (main_arg1 : IVec S800000 32) (main_arg2 : IVec S800000 32) (main_arg3 : FVec F S256x256 .f32) (main_arg4 : FVec F S256x256 .f32) (main_arg5 : FVec F S256 .f32) (main_arg6 : FVec F S256x128 .f32) (main_arg7 : FVec F S256x128 .f32) (main_arg8 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x256 : Shape := ⟨2, ![800000, 256]⟩
abbrev S1x256 : Shape := ⟨2, ![1, 256]⟩
abbrev S2000x256 : Shape := ⟨2, ![2000, 256]⟩
abbrev S2000x1 : Shape := ⟨2, ![2000, 1]⟩
abbrev S1x128 : Shape := ⟨2, ![1, 128]⟩
abbrev S100000x128 : Shape := ⟨2, ![100000, 128]⟩
abbrev S2000x128 : Shape := ⟨2, ![2000, 128]⟩
abbrev S2000 : Shape := ⟨1, ![2000]⟩

abbrev nBuf : Space → Nat
  | .hbm => 47
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S100000x1, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x256, .f32⟩
  | .hbm, ⟨25, _⟩ => ⟨S_, .f32⟩
  | .hbm, ⟨26, _⟩ => ⟨S100000x256, .f32⟩
  | .hbm, ⟨27, _⟩ => ⟨S800000x1, .i32⟩
  | .hbm, ⟨28, _⟩ => ⟨S100000x256, .f32⟩
  | .hbm, ⟨29, _⟩ => ⟨S1x256, .f32⟩
  | .hbm, ⟨30, _⟩ => ⟨S100000x256, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .bf16⟩
  | .hbm, ⟨40, _⟩ => ⟨S800000x256, .f32⟩
  | .hbm, ⟨41, _⟩ => ⟨S_, .f32⟩
  | .hbm, ⟨42, _⟩ => ⟨S100000x256, .f32⟩
  | .hbm, ⟨43, _⟩ => ⟨S800000x1, .i32⟩
  | .hbm, ⟨44, _⟩ => ⟨S100000x256, .f32⟩
  | .hbm, ⟨45, _⟩ => ⟨S1x128, .f32⟩
  | .hbm, ⟨46, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S256x128, .f32⟩
  | .local _ .vmem, ⟨18, _⟩ => ⟨S256x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bcast_S_S100000x256 : S_.BroadcastsInDim S100000x256 (![] : Fin 0 → Fin S100000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .bf16 = 32 ∨ (Rect.block (s := S100000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .bf16 = 32 ∨ (Rect.block (s := S100000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S1x256 : Shape := ⟨2, ![1, 256]⟩
abbrev S100000x128 : Shape := ⟨2, ![100000, 128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x256, .f32⟩
  | .hbm, ⟨24, _⟩ => ⟨S_, .f32⟩
  | .hbm, ⟨25, _⟩ => ⟨S100000x256, .f32⟩
  | .hbm, ⟨26, _⟩ => ⟨S800000x1, .i32⟩
  | .hbm, ⟨27, _⟩ => ⟨S100000x256, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S100000x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S800000, .f32⟩
  | .hbm, ⟨45, _⟩ => ⟨S_, .f32⟩
  | .hbm, ⟨46, _⟩ => ⟨S100000, .f32⟩
  | .hbm, ⟨47, _⟩ => ⟨S800000x1, .i32⟩
  | .hbm, ⟨48, _⟩ => ⟨S100000, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S100000x256, .f32⟩
  | .hbm, ⟨60, _⟩ => ⟨S800000x1, .i32⟩
  | .hbm, ⟨61, _⟩ => ⟨S100000x256, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x256, .f32⟩
  | .hbm, ⟨67, _⟩ => ⟨S100000x256, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000, .f32⟩
  | .hbm, ⟨80, _⟩ => ⟨S100000x1, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x128, .f32⟩
  | .hbm, ⟨86, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_call2_v0 : Ref sig .tc := ⟨.hbm, 77, rfl⟩
abbrev main_call2_cst : Ref sig .tc := ⟨.hbm, 78, rfl⟩
abbrev main_call2_v1 : Ref sig .tc := ⟨.hbm, 79, rfl⟩
abbrev main_call2_v2 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The idealized kernel's run with its result named.

  The program is two pipelined regions among two stretches of host operations. Every weakly fair execution ends
  with each buffer the thread holds at the contents the last boundary names: the result array at what the second
  region's write-backs leave of it, and every argument array as it was launched.
-/
import proofs.«179732_j18906446037603_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the argument arrays as launched. -/
theorem run : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«179732_j18906446037603_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«179732_j18906446037603_2_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibOuterBlock.lean ====
/-
  Blocks of rows of a matrix built from one column and one row.

  A matrix of M rows and N columns whose entry (r, c) is made of the r-th number of a column and the c-th number of
  a row (an outer product, or any entrywise function of the two) is read here one block of rows at a time, in the
  same sense as for a dense layer: `RowBlk off xb X` says that `xb` is the block of `X` that starts at row `off`.

  * A column carried along the columns keeps the relation: inside a body the block's own column is broadcast to the
    block, on the host the whole column is broadcast to the whole matrix, and row `off + r` of the second is row `r`
    of the first.
  * A vector of n numbers made an n×1 column — by a reshape, which keeps the row-major position, or by a broadcast
    along a new trailing unit axis — is one and the same column.
  Stated for any extents; no finiteness is asked of any entry, nothing is computed.
-/
import proofs.«179732_j18906446037603_2_alg».proof.Proof.LibPlainRecord
import proofs.«179732_j18906446037603_2_alg».proof.Proof.LibKeepdimsColumn

noncomputable section

namespace Cert.Lib.DenseLayer

open Idealize.ShloMosaic Idealize.ShloMosaic.ValueIdx

/-- A column broadcast along the columns: the block of the broadcast is the broadcast of the block's column. -/
theorem RowBlk.col {Mb M N : Nat} {off : Nat} {vb : (⟨2, ![Mb, 1]⟩ : Shape).Idx → EReal}
    {V : (⟨2, ![M, 1]⟩ : Shape).Idx → EReal} (h : RowBlk off vb V)
    (hb : (⟨2, ![Mb, 1]⟩ : Shape).Broadcasts ⟨2, ![Mb, N]⟩)
    (hB : (⟨2, ![M, 1]⟩ : Shape).BroadcastsInDim ⟨2, ![M, N]⟩ ![0, 1]) :
    RowBlk off (broadcastTo ⟨2, ![Mb, N]⟩ vb hb) (broadcastInDim ⟨2, ![M, N]⟩ ![0, 1] hB V) := fun r hr c => by
  rw [Cert.Lib.KeepdimsColumn.column_broadcast_at vb hb r c,
    broadcastInDim_apply ![0, 1] hB V (ix2 ⟨off + r.val, hr⟩ c) (ix2 (n0 := M) (n1 := 1) ⟨off + r.val, hr⟩ ⟨0, Nat.one_pos⟩)
      (fun a => by
        match a with
        | ⟨0, _⟩ =>
          show off + r.val = if M = 1 then 0 else off + r.val
          split
          · omega
          · rfl
        | ⟨1, _⟩ =>
          show 0 = if (1 : Nat) = 1 then 0 else c.val
          rw [if_pos rfl])]
  exact h r hr ⟨0, Nat.one_pos⟩

/-- A vector of n entries made an n×1 column — by a reshape, or by a broadcast along a new trailing unit axis — is
    one and the same column. -/
theorem trailUnit_eq_bcast {α : Type} {n : Nat} (hn : n ≠ 1) (u : (⟨1, ![n]⟩ : Shape).Idx → α)
    (hs : (⟨1, ![n]⟩ : Shape).ShapeCasts ⟨2, ![n, 1]⟩) (hb : (⟨1, ![n]⟩ : Shape).BroadcastsInDim ⟨2, ![n, 1]⟩ ![0]) :
    shapeCast ⟨2, ![n, 1]⟩ u hs = broadcastInDim ⟨2, ![n, 1]⟩ ![0] hb u := funext fun j => by
  obtain ⟨p, q, rfl⟩ : ∃ (p : Fin n) (q : Fin 1), j = ix2 p q := ⟨j 0, j 1, eq_ix2 j⟩
  have hq : q = ⟨0, Nat.one_pos⟩ := Fin.ext (by have := q.isLt; omega)
  subst hq
  rw [Cert.Lib.KeepdimsColumn.column_cast_at u hs p,
    broadcastInDim_apply ![0] hb u (ix2 (n0 := n) (n1 := 1) p ⟨0, Nat.one_pos⟩) (ix1 p) (fun a => by
      match a with
      | ⟨0, _⟩ => exact (if_neg hn).symm)]

end Cert.Lib.DenseLayer

end
-- ==== Proof.LibRowNorm.lean ====
/-
  Blocks of rows of a matrix through the remaining entrywise and per-row operations of a normalised dense layer, at
  the extended reals.

  In the sense of the dense-layer relation — 'RowBlk off xb X' says that 'xb' is the block of rows of 'X' that
  starts at row 'off' — the relation is carried by

  * an entrywise quotient: the quotient taken inside a body and the one taken on the host are the same function
    of two extended reals;
  * a change of float format, which is the identity on extended reals, and a square root, likewise one function on
    both sides;
  * a matrix product whose left factor is used as it is and whose right factor is narrowed first;
  * the sum of each row, kept as a column: inside a body the sum along the columns of the block, reshaped from a
    vector to a column; on the host the sum along the columns of the whole matrix started from the constant zero,
    broadcast to a column. Row 'off + r' of the second is row 'r' of the first: both are the sum over the columns
    of the same entries, and the zero the host starts from adds nothing.

  No finiteness is asked of any entry.
-/
import proofs.«179732_j18906446037603_2_alg».proof.Proof.LibOuterBlock

noncomputable section

open scoped BigOperators

namespace Cert.Lib.DenseLayer

open Idealize.ShloMosaic Idealize.ShloMosaic.ValueIdx Cert.Lib.PlainDot

/-- Entrywise quotients of blocks of rows: the body's division and the host's are one function. -/
theorem RowBlk.div {Mb M K : Nat} {off : Nat} {a b : FVec Ideal ⟨2, ![Mb, K]⟩ .f32} {A B : FVec Ideal ⟨2, ![M, K]⟩ .f32}
    (ha : RowBlk off a A) (hb : RowBlk off b B) : RowBlk off (divf a b) (Host.divf A B) := fun r hr k => by
  show Ideal.div (a (ix2 r k)) (b (ix2 r k)) = Ideal.div (A (ix2 ⟨off + r.val, hr⟩ k)) (B (ix2 ⟨off + r.val, hr⟩ k))
  rw [ha r hr k, hb r hr k]

/-- Entrywise square roots of blocks of rows: the body's and the host's are one function. -/
theorem RowBlk.sqrt {Mb M K : Nat} {off : Nat} {a : FVec Ideal ⟨2, ![Mb, K]⟩ .f32} {A : FVec Ideal ⟨2, ![M, K]⟩ .f32}
    (ha : RowBlk off a A) : RowBlk off (Idealize.ShloMosaic.sqrt a) (Host.sqrt A) := fun r hr k => by
  show Ideal.sqrt (a (ix2 r k)) = Ideal.sqrt (A (ix2 ⟨off + r.val, hr⟩ k))
  rw [ha r hr k]

/-- A change of float format leaves a block of rows what it was. -/
theorem RowBlk.narrow {Mb M K : Nat} {off : Nat} {φ ψ : FTy} {a : FVec Ideal ⟨2, ![Mb, K]⟩ φ} {A : (⟨2, ![M, K]⟩ : Shape).Idx → EReal}
    (ha : RowBlk off a A) (h : ψ.bits < φ.bits) : RowBlk off (truncf ψ a h) A := fun r hr k => ha r hr k

/-- The matrix unit's product into the zero matrix of a block of rows, used as it is, with a narrowed right factor. -/
theorem RowBlk.matmulLeft {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ : FTy}
    {xb : FVec Ideal ⟨2, ![Mb, K]⟩ φ} {X : FVec Ideal ⟨2, ![M, K]⟩ .f32} (h : RowBlk off xb X)
    (w : FVec Ideal ⟨2, ![K, N]⟩ .f32) (h₂ : FTy.bf16.bits < FTy.f32.bits) :
    RowBlk off (Idealize.ShloMosaic.matmul db none xb (truncf .bf16 w h₂) (constant ⟨2, ![Mb, N]⟩ .f32 0x00000000#32))
      (Host.dotGeneral dh none X w) := fun r hr c => by
  refine (Ideal.matmul_constant_zero_apply db none xb (truncf .bf16 w h₂) (ix2 r c)).trans ?_
  rw [hh.dot_apply, contraction_sum db hb.rank hb.size hb.l0 hb.l1 hb.r0 hb.r1 xb (truncf .bf16 w h₂) r c]
  exact Finset.sum_congr rfl fun k _ => congrArg (· * w (ix2 k c)) (h r hr k)

/-- The source index over the reduced index r with coordinate k inserted on the columns' axis is (r, k). -/
theorem lift_cols {Mb N : Nat} (h : Shape.Reduces ⟨2, ![Mb, N]⟩ [1] ⟨1, ![Mb]⟩) (r : Fin Mb) (k : Fin N) :
    h.lift (ix1 r) k = ix2 r k := funext fun a => Fin.ext (by
  match a with
  | ⟨0, _⟩ => rfl
  | ⟨1, _⟩ => rfl)

/-- The sums of the rows, kept as a column. -/
theorem RowBlk.rowSum {Mb M N : Nat} {off : Nat} {a : FVec Ideal ⟨2, ![Mb, N]⟩ .f32} {A : FVec Ideal ⟨2, ![M, N]⟩ .f32}
    (ha : RowBlk off a A)
    (hr : Shape.Reduces ⟨2, ![Mb, N]⟩ [1] ⟨1, ![Mb]⟩) (hφ : FKind.Formats .f32)
    (hacc : (0x00000000#32 : BitVec FTy.f32.bits) = FKind.add.neutral .f32 hφ)
    (hc : (⟨1, ![Mb]⟩ : Shape).ShapeCasts ⟨2, ![Mb, 1]⟩)
    (hR' : Shape.ReducesTo ⟨2, ![M, N]⟩ [1] ⟨1, ![M]⟩) (hR : Shape.Reduces ⟨2, ![M, N]⟩ [1] ⟨1, ![M]⟩)
    (hu : 0 < (⟨0, ![]⟩ : Shape).numel) (hM : M ≠ 1)
    (hB : (⟨1, ![M]⟩ : Shape).BroadcastsInDim ⟨2, ![M, 1]⟩ ![0]) :
    RowBlk off (shapeCast ⟨2, ![Mb, 1]⟩ (multiReduction .add [1] ⟨1, ![Mb]⟩ a 0x00000000#32 hr hφ hacc) hc)
      (broadcastInDim ⟨2, ![M, 1]⟩ ![0] hB (Host.reduceAdd A (constant (F := Ideal) ⟨0, ![]⟩ .f32 0x00000000#32) hR' hu)) :=
  fun r hrow k => by
  have hk : k = ⟨0, Nat.one_pos⟩ := Fin.ext (by have := k.isLt; omega)
  subst hk
  rw [Cert.Lib.KeepdimsColumn.column_cast_at _ hc r,
    broadcastInDim_apply ![0] hB _ (ix2 (n0 := M) (n1 := 1) ⟨off + r.val, hrow⟩ ⟨0, Nat.one_pos⟩) (ix1 ⟨off + r.val, hrow⟩) (fun d => by
      match d with
      | ⟨0, _⟩ => exact (if_neg hM).symm),
    Ideal.multiReduction_add_single a _ hr hφ hacc (ix1 r)]
  show _ = Ideal.hostReduceAdd hR' A (Ideal.ofBits .f32 0x00000000#32) (ix1 ⟨off + r.val, hrow⟩)
  rw [Ideal.hostReduceAdd_single hR' hR, Ideal.ofBits_zero_f32, zero_add]
  refine Finset.sum_congr rfl fun q _ => ?_
  rw [lift_cols hr r q, lift_cols hR ⟨off + r.val, hrow⟩ q]
  exact ha r hrow q

end Cert.Lib.DenseLayer

end
-- ==== Proof.Spec.lean ====
/-
  What the two programs compute, as functions of whole arrays at the extended reals.

  A graph layer with mean aggregation takes the node features H (one row per node), the sums Ms of the neighbours'
  features, the in-degrees D (a column), two weight matrices and a bias row, and gives, row by row,

      max (H · Ws + (Ms / max(D, 1)) · Wn + b, 0),

  the division row by row by the node's own degree, at least 1. The closing normalisation divides each row of a
  matrix A by max (sqrt (sum of the squares of the row), eps).

  Both are written here with the host's own operations, over any extents, the side conditions of the shapes taken
  as arguments. Two small facts relate the two spellings a program may give the degree column and the bias row: a
  vector reshaped to a column, or to a row, is the same array as the vector broadcast along a new unit axis, and
  the entrywise maximum with a constant goes through either.
-/
import proofs.«179732_j18906446037603_2_alg».proof.Proof.LibRowNorm

noncomputable section

namespace Cert.Sage

open Idealize.ShloMosaic Idealize.ShloMosaic.ValueIdx Cert.Lib.DenseLayer

abbrev S0 : Shape := ⟨0, ![]⟩

/-- One layer on whole arrays: max (H · Ws + (Ms / max (D, 1)) · Wn + b, 0). -/
def layer {M K N : Nat} (dh : DotDims ⟨2, ![M, K]⟩ ⟨2, ![K, N]⟩ ⟨2, ![M, N]⟩)
    (hD : (⟨2, ![M, 1]⟩ : Shape).BroadcastsInDim ⟨2, ![M, K]⟩ ![0, 1])
    (hB : (⟨2, ![1, N]⟩ : Shape).BroadcastsInDim ⟨2, ![M, N]⟩ ![0, 1])
    (h1 : S0.BroadcastsInDim ⟨2, ![M, 1]⟩ (![] : Fin 0 → Fin 2))
    (h0 : S0.BroadcastsInDim ⟨2, ![M, N]⟩ (![] : Fin 0 → Fin 2))
    (H Ms : FVec Ideal ⟨2, ![M, K]⟩ .f32) (D : FVec Ideal ⟨2, ![M, 1]⟩ .f32)
    (Ws Wn : FVec Ideal ⟨2, ![K, N]⟩ .f32) (B : FVec Ideal ⟨2, ![1, N]⟩ .f32) : FVec Ideal ⟨2, ![M, N]⟩ .f32 :=
  maximumf
    (addf
      (addf (Host.dotGeneral dh none H Ws)
        (Host.dotGeneral dh none
          (Host.divf Ms (broadcastInDim ⟨2, ![M, K]⟩ ![0, 1] hD
            (maximumf D (broadcastInDim ⟨2, ![M, 1]⟩ ![] h1 (constant (F := Ideal) S0 .f32 0x3F800000#32))))) Wn))
      (broadcastInDim ⟨2, ![M, N]⟩ ![0, 1] hB B))
    (broadcastInDim ⟨2, ![M, N]⟩ ![] h0 (constant (F := Ideal) S0 .f32 0x00000000#32))

/-- Each row divided by max (its Euclidean length, eps), eps the float 0x2B8CBCCC. -/
def normalise {M N : Nat} (hR : Shape.ReducesTo ⟨2, ![M, N]⟩ [1] ⟨1, ![M]⟩) (hu : 0 < S0.numel)
    (hC : (⟨1, ![M]⟩ : Shape).BroadcastsInDim ⟨2, ![M, 1]⟩ ![0])
    (hE : S0.BroadcastsInDim ⟨2, ![M, 1]⟩ (![] : Fin 0 → Fin 2))
    (hD : (⟨2, ![M, 1]⟩ : Shape).BroadcastsInDim ⟨2, ![M, N]⟩ ![0, 1])
    (A : FVec Ideal ⟨2, ![M, N]⟩ .f32) : FVec Ideal ⟨2, ![M, N]⟩ .f32 :=
  Host.divf A (broadcastInDim ⟨2, ![M, N]⟩ ![0, 1] hD
    (maximumf (Host.sqrt (broadcastInDim ⟨2, ![M, 1]⟩ ![0] hC
        (Host.reduceAdd (mulf A A) (constant (F := Ideal) S0 .f32 0x00000000#32) hR hu)))
      (broadcastInDim ⟨2, ![M, 1]⟩ ![] hE (constant (F := Ideal) S0 .f32 0x2B8CBCCC#32))))

/-- The degrees as a column with the floor 1 applied: taking the maximum with 1 on the vector and then making it a
    column is making it a column (by a reshape) and then taking the maximum with 1. -/
theorem column_max {M : Nat} (hM : M ≠ 1) (u : FVec Ideal ⟨1, ![M]⟩ .f32)
    (hs : (⟨1, ![M]⟩ : Shape).ShapeCasts ⟨2, ![M, 1]⟩) (hb : (⟨1, ![M]⟩ : Shape).BroadcastsInDim ⟨2, ![M, 1]⟩ ![0])
    (hv : S0.BroadcastsInDim ⟨1, ![M]⟩ (![] : Fin 0 → Fin 1))
    (h1 : S0.BroadcastsInDim ⟨2, ![M, 1]⟩ (![] : Fin 0 → Fin 2)) (c : BitVec FTy.f32.bits) :
    broadcastInDim ⟨2, ![M, 1]⟩ ![0] hb (maximumf u (broadcastInDim ⟨1, ![M]⟩ ![] hv (constant (F := Ideal) S0 .f32 c)))
      = maximumf (shapeCast ⟨2, ![M, 1]⟩ u hs) (broadcastInDim ⟨2, ![M, 1]⟩ ![] h1 (constant (F := Ideal) S0 .f32 c)) := by
  rw [trailUnit_eq_bcast hM u hs hb]
  funext j
  obtain ⟨p, q, rfl⟩ : ∃ (p : Fin M) (q : Fin 1), j = ix2 p q := ⟨j 0, j 1, eq_ix2 j⟩
  have hidx : ∀ a : Fin 1, ((ix1 p : (⟨1, ![M]⟩ : Shape).Idx) a).val
      = if (⟨1, ![M]⟩ : Shape).size a = 1 then 0 else ((ix2 p q : (⟨2, ![M, 1]⟩ : Shape).Idx) ((![0] : Fin 1 → Fin 2) a)).val := fun a => by
    match a with
    | ⟨0, _⟩ => exact (if_neg hM).symm
  rw [maximumf_apply, broadcastInDim_apply ![0] hb _ (ix2 p q) (ix1 p) hidx, maximumf_apply,
    broadcastInDim_apply ![0] hb u (ix2 p q) (ix1 p) hidx,
    broadcastInDim_apply ![] hv _ (ix1 p) ix0 (fun a => a.elim0),
    broadcastInDim_apply ![] h1 _ (ix2 p q) ix0 (fun a => a.elim0)]

end Cert.Sage

end
-- ==== Proof.Body.lean ====
/-
  The two kernel bodies on one block of rows.

  Each body takes a block of 2000 consecutive rows of the node features, of the neighbour sums and of the degree
  column, with the whole weight matrices and the bias row, and applies the layer's operations to the block. Every one of those
  operations acts on each row by itself, so the block the body computes is the same block of rows of the layer
  applied to the whole arrays; the second body's closing normalisation divides each row by a quantity of that row
  alone, so the same holds of it.
-/
import proofs.«179732_j18906446037603_2_alg».proof.Proof.Gen.KernelIdeal.Skeleton
import proofs.«179732_j18906446037603_2_alg».proof.Proof.Gen.ReferenceIdeal
import proofs.«179732_j18906446037603_2_alg».proof.Proof.Spec

noncomputable section

namespace Cert.Sage

open Idealize.ShloMosaic Idealize.ShloMosaic.ValueIdx Cert.Lib.DenseLayer
open Cert.KernelIdeal Cert.KernelIdeal.Facts₀

/-- A constant splat inside a body and the same constant broadcast on the host. -/
theorem splat_blk {Mb M K : Nat} {off : Nat} (b : BitVec FTy.f32.bits)
    (h : S0.BroadcastsInDim ⟨2, ![M, K]⟩ (![] : Fin 0 → Fin 2)) :
    RowBlk (Mb := Mb) off (broadcast ⟨2, ![Mb, K]⟩ (Scalar.ofBits (F := Ideal) .f32 b))
      (broadcastInDim ⟨2, ![M, K]⟩ ![] h (constant (F := Ideal) S0 .f32 b)) :=
  RowBlk.const (Ideal.ofBits .f32 b) (fun _ => rfl)
    (fun i => (broadcastInDim_apply ![] h _ i ix0 (fun a => a.elim0)).trans rfl)

/-- The first layer on the whole arrays: 100000 nodes, 256 features in, 256 out. -/
def layer1 (H Ms : FVec Ideal S100000x256 .f32) (D : FVec Ideal S100000x1 .f32)
    (Ws Wn : FVec Ideal S256x256 .f32) (B : FVec Ideal S1x256 .f32) : FVec Ideal S100000x256 .f32 :=
  layer Cert.ReferenceIdeal.dot_S100000x256_S256x256_S100000x256_1_0_0_1_n_n
    Cert.ReferenceIdeal.Facts₀.bcast_S100000x1_S100000x256_0_1 Cert.ReferenceIdeal.Facts₀.bcast_S1x256_S100000x256_0_1
    Cert.ReferenceIdeal.Facts₀.bcast_S_S100000x1 Cert.ReferenceIdeal.Facts₀.bcast_S_S100000x256 H Ms D Ws Wn B

/-- The second layer before its normalisation: 256 features in, 128 out. -/
def layer2 (H Ms : FVec Ideal S100000x256 .f32) (D : FVec Ideal S100000x1 .f32)
    (Ws Wn : FVec Ideal S256x128 .f32) (B : FVec Ideal S1x128 .f32) : FVec Ideal S100000x128 .f32 :=
  layer Cert.ReferenceIdeal.dot_S100000x256_S256x128_S100000x128_1_0_0_1_n_n
    Cert.ReferenceIdeal.Facts₀.bcast_S100000x1_S100000x256_0_1 Cert.ReferenceIdeal.Facts₀.bcast_S1x128_S100000x128_0_1
    Cert.ReferenceIdeal.Facts₀.bcast_S_S100000x1 Cert.ReferenceIdeal.Facts₀.bcast_S_S100000x128 H Ms D Ws Wn B

/-- The rows of a 100000 × 128 matrix, each divided by max (its length, eps). -/
def unitRows (A : FVec Ideal S100000x128 .f32) : FVec Ideal S100000x128 .f32 :=
  normalise Cert.ReferenceIdeal.Facts₀.reducesTo_S100000x128_S100000_d1 Cert.ReferenceIdeal.Facts₀.h_S_
    Cert.ReferenceIdeal.Facts₀.bcast_S100000_S100000x1_0 Cert.ReferenceIdeal.Facts₀.bcast_S_S100000x1
    Cert.ReferenceIdeal.Facts₀.bcast_S100000x1_S100000x128_0_1 A

theorem plain_host1 : Plain Cert.ReferenceIdeal.dot_S100000x256_S256x256_S100000x256_1_0_0_1_n_n :=
  Plain.of_fields _ rfl rfl rfl rfl rfl rfl
theorem plain_host2 : Plain Cert.ReferenceIdeal.dot_S100000x256_S256x128_S100000x128_1_0_0_1_n_n :=
  Plain.of_fields _ rfl rfl rfl rfl rfl rfl
theorem plain_blk1 : Plain dot_S2000x256_S256x256_S2000x256_1_0_0_1_n_n := Plain.of_fields _ rfl rfl rfl rfl rfl rfl
theorem plain_blk2 : Plain dot_S2000x256_S256x128_S2000x128_1_0_0_1_n_n := Plain.of_fields _ rfl rfl rfl rfl rfl rfl

/-- The first body's stored value is the block of rows of the first layer. -/
theorem body1_blk (off : Nat) (x0 x1 : Vec Ideal S2000x256 .f32) (x2 : Vec Ideal S2000x1 .f32)
    (x3 x4 : Vec Ideal S256x256 .f32) (x5 : Vec Ideal S1x256 .f32)
    (H Ms : FVec Ideal S100000x256 .f32) (D : FVec Ideal S100000x1 .f32)
    (h0 : RowBlk off x0 H) (h1 : RowBlk off x1 Ms) (h2 : RowBlk off x2 D) :
    RowBlk off (Gen.k0_pay1 (F := Ideal) x0 x1 x2 x3 x4 x5) (layer1 H Ms D x3 x4 x5) := by
  unfold Gen.k0_pay1 layer1 layer
  simp only [shapeCast_self]
  exact RowBlk.narrow (RowBlk.max (RowBlk.add
    (RowBlk.add (RowBlk.matmul plain_blk1 plain_host1 h0 x3 _ _)
      (RowBlk.matmul plain_blk1 plain_host1 (RowBlk.div h1 (RowBlk.col (RowBlk.max h2 (splat_blk _ _)) _ _)) x4 _ _))
    (RowBlk.bias x5 _ _)) (splat_blk _ _)) _

/-- The second body up to its rectifier: what the normalisation is applied to. -/
def blkLayer2 (v0 : Vec Ideal S2000x256 .bf16) (v2 : Vec Ideal S2000x256 .f32) (v4 : Vec Ideal S2000x1 .f32)
    (v11 v13 : Vec Ideal S256x128 .f32) (v18 : Vec Ideal S1x128 .f32) : FVec Ideal S2000x128 .f32 :=
  maximumf
    (addf
      (addf
        (matmul dot_S2000x256_S256x128_S2000x128_1_0_0_1_n_n none (shapeCast S2000x256 v0 shapeCasts_S2000x256_S2000x256 : FVec Ideal S2000x256 .bf16)
          (truncf .bf16 v11 bitsLt_bf16_f32) (constant S2000x128 .f32 0x00000000#32))
        (matmul dot_S2000x256_S256x128_S2000x128_1_0_0_1_n_n none
          (truncf .bf16 (divf (shapeCast S2000x256 v2 shapeCasts_S2000x256_S2000x256)
            (broadcastTo S2000x256 (maximumf (shapeCast S2000x1 v4 shapeCasts_S2000x1_S2000x1)
              (broadcast S2000x1 (Scalar.ofBits .f32 0x3F800000#32))) broadcasts_S2000x1_S2000x256)) bitsLt_bf16_f32)
          (truncf .bf16 v13 bitsLt_bf16_f32) (constant S2000x128 .f32 0x00000000#32)))
      (broadcastTo S2000x128 (shapeCast S1x128 v18 shapeCasts_S1x128_S1x128) broadcasts_S1x128_S2000x128))
    (broadcast S2000x128 (Scalar.ofBits .f32 0x00000000#32))

/-- The second body's normalisation of a block: each row divided by max (its length, eps). -/
def blkUnitRows (a : FVec Ideal S2000x128 .f32) : FVec Ideal S2000x128 .f32 :=
  divf a (broadcastTo S2000x128
    (maximumf (Idealize.ShloMosaic.sqrt (shapeCast S2000x1
        (multiReduction .add [1] S2000 (mulf a a) 0x00000000#32 reduces_S2000x128_S2000 (.inl rfl) rfl) shapeCasts_S2000_S2000x1))
      (broadcast S2000x1 (Scalar.ofBits .f32 0x2B8CBCCC#32))) broadcasts_S2000x1_S2000x128)

/-- The second body's stored value is the normalisation of its rectified block. -/
theorem k1_pay1_eq (v0 : Vec Ideal S2000x256 .bf16) (v2 : Vec Ideal S2000x256 .f32) (v4 : Vec Ideal S2000x1 .f32)
    (v11 v13 : Vec Ideal S256x128 .f32) (v18 : Vec Ideal S1x128 .f32) :
    Gen.k1_pay1 (F := Ideal) v0 v2 v4 v11 v13 v18 = blkUnitRows (blkLayer2 v0 v2 v4 v11 v13 v18) := rfl

/-- The rectified block of the second body is the block of rows of the second layer. -/
theorem blkLayer2_blk (off : Nat) (x0 : Vec Ideal S2000x256 .bf16) (x1 : Vec Ideal S2000x256 .f32) (x2 : Vec Ideal S2000x1 .f32)
    (x3 x4 : Vec Ideal S256x128 .f32) (x5 : Vec Ideal S1x128 .f32)
    (H Ms : FVec Ideal S100000x256 .f32) (D : FVec Ideal S100000x1 .f32)
    (h0 : RowBlk off x0 H) (h1 : RowBlk off x1 Ms) (h2 : RowBlk off x2 D) :
    RowBlk off (blkLayer2 x0 x1 x2 x3 x4 x5) (layer2 H Ms D x3 x4 x5) := by
  unfold blkLayer2 layer2 layer
  simp only [shapeCast_self]
  exact RowBlk.max (RowBlk.add
    (RowBlk.add (RowBlk.matmulLeft plain_blk2 plain_host2 h0 x3 _)
      (RowBlk.matmul plain_blk2 plain_host2 (RowBlk.div h1 (RowBlk.col (RowBlk.max h2 (splat_blk _ _)) _ _)) x4 _ _))
    (RowBlk.bias x5 _ _)) (splat_blk _ _)

/-- The normalisation of a block of rows is the block of rows of the normalisation. -/
theorem blkUnitRows_blk (off : Nat) (a : FVec Ideal S2000x128 .f32) (A : FVec Ideal S100000x128 .f32) (h : RowBlk off a A) :
    RowBlk off (blkUnitRows a) (unitRows A) := by
  unfold blkUnitRows unitRows normalise
  exact RowBlk.div h (RowBlk.col (RowBlk.max
    (RowBlk.sqrt (RowBlk.rowSum (RowBlk.mul h h) _ _ _ _ _ (by decide) _ (by decide) _)) (splat_blk _ _)) _ _)

/-- The second body's stored value is the block of rows of the normalised second layer. -/
theorem body2_blk (off : Nat) (x0 : Vec Ideal S2000x256 .bf16) (x1 : Vec Ideal S2000x256 .f32) (x2 : Vec Ideal S2000x1 .f32)
    (x3 x4 : Vec Ideal S256x128 .f32) (x5 : Vec Ideal S1x128 .f32)
    (H Ms : FVec Ideal S100000x256 .f32) (D : FVec Ideal S100000x1 .f32)
    (h0 : RowBlk off x0 H) (h1 : RowBlk off x1 Ms) (h2 : RowBlk off x2 D) :
    RowBlk off (Gen.k1_pay1 (F := Ideal) x0 x1 x2 x3 x4 x5) (unitRows (layer2 H Ms D x3 x4 x5)) := by
  rw [k1_pay1_eq]
  exact blkUnitRows_blk off _ _ (blkLayer2_blk off x0 x1 x2 x3 x4 x5 H Ms D h0 h1 h2)

end Cert.Sage

end
-- ==== Proof.Whole.lean ====
/-
  The whole computation as one function of the nine argument arrays.

  The in-degree vector and the neighbour sum of a feature array (a gather along the edges' sources scatter-added at
  their destinations) are named by the stages the reference's own reading gives them; the degree column is the
  in-degree vector reshaped to a column, a bias row the bias vector reshaped to a row. The first layer is applied
  to the features, their neighbour sums and the degree column; the second to the first layer's output, its
  neighbour sums and the same degree column; and the rows of the result are normalised.
-/
import proofs.«179732_j18906446037603_2_alg».proof.Proof.Gen.ReferenceIdeal.Read
import proofs.«179732_j18906446037603_2_alg».proof.Proof.Body

noncomputable section

namespace Cert.Sage

open Idealize.ShloMosaic
open Cert.KernelIdeal
open Cert.ReferenceIdeal.Read (val_main_v3 val_main_v13)

/-- The degree column: the in-degree vector as a column. -/
def degCol (x2 : IVec S800000 32) : FVec Ideal S100000x1 .f32 :=
  shapeCast S100000x1 (val_main_v3 (F := Ideal) x2) Facts₀.shapeCasts_S100000_S100000x1

/-- The first layer's output. -/
def hidden (x0 : FVec Ideal S100000x256 .f32) (x1 x2 : IVec S800000 32) (x3 x4 : FVec Ideal S256x256 .f32) (x5 : FVec Ideal S256 .f32) :
    FVec Ideal S100000x256 .f32 :=
  layer1 x0 (val_main_v13 (F := Ideal) x0 x1 x2) (degCol x2) x3 x4 (shapeCast S1x256 x5 Facts₀.shapeCasts_S256_S1x256)

/-- The whole computation on the nine argument arrays. -/
def sage (x0 : FVec Ideal S100000x256 .f32) (x1 x2 : IVec S800000 32) (x3 x4 : FVec Ideal S256x256 .f32) (x5 : FVec Ideal S256 .f32)
    (x6 x7 : FVec Ideal S256x128 .f32) (x8 : FVec Ideal S128 .f32) : FVec Ideal S100000x128 .f32 :=
  unitRows (layer2 (hidden x0 x1 x2 x3 x4 x5) (val_main_v13 (F := Ideal) (hidden x0 x1 x2 x3 x4 x5) x1 x2) (degCol x2)
    x6 x7 (shapeCast S1x128 x8 Facts₀.shapeCasts_S128_S1x128))

end Cert.Sage

end
-- ==== Proof.Blocks.lean ====
/-
  From blocks of rows to whole arrays, for each of the two regions.

  A region runs its body once per grid point t = 0 … 49. At point t the windows over the node features, the
  neighbour sums and the degree column hold rows 2000·t … 2000·t + 1999 of their arrays, the windows over the weights
  and the bias hold those arrays whole, and the output window's block — the same rows of the result — is written
  back. The body's stored block is the block of rows of the layer applied to the whole arrays, and the fifty blocks
  tile the 100000 rows, so the result array ends as the layer of the arrays the region was entered with.
-/
import proofs.«179732_j18906446037603_2_alg».proof.Proof.Gen.KernelIdeal.Frame
import proofs.«179732_j18906446037603_2_alg».proof.Proof.Body

set_option maxRecDepth 16384

noncomputable section

namespace Cert.Sage

open Idealize.ShloMosaic Idealize.ShloMosaic.TcCoe Idealize.ShloMosaic.ValueIdx Idealize.SL.Sem
open Cert.Lib.DenseLayer Cert.KernelIdeal Cert.KernelIdeal.Gen
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-! ## Region 0 -/

/-- The printed index maps over the grid: the row windows sit at block t, the others at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt0 (t : Fin cfg0.N) : t.val < 50 := by
  have h : t.val < grid0.N := t.isLt
  rwa [N_0] at h

/-- The features' window at point t holds rows 2000·t … of the features. -/
theorem rows0_0 (c : Dev nD) (t : Fin cfg0.N) : RowBlk (2000 * t.val) (iblk0 V c 0 t) (V c main_arg0) := fun r hr k => by
  show V c main_arg0 (((cfg0.win 0).blk t).view.emb (ix2 r k)) = V c main_arg0 (ix2 ⟨2000 * t.val + r.val, hr⟩ k)
  obtain ⟨e0, e1, -⟩ := idx0 t
  refine congrArg _ (funext fun a => Fin.ext ?_)
  match a with
  | ⟨0, _⟩ => show win0_0.index t (0 : Fin 2) * 2000 + 1 * r.val = 2000 * t.val + r.val; omega
  | ⟨1, _⟩ => show win0_0.index t (1 : Fin 2) * 256 + 1 * k.val = k.val; omega

/-- The neighbour sums' window at point t holds the same rows of the neighbour sums. -/
theorem rows0_1 (c : Dev nD) (t : Fin cfg0.N) : RowBlk (2000 * t.val) (iblk0 V c 1 t) (V c main_v14) := fun r hr k => by
  show V c main_v14 (((cfg0.win 1).blk t).view.emb (ix2 r k)) = V c main_v14 (ix2 ⟨2000 * t.val + r.val, hr⟩ k)
  obtain ⟨-, -, e0, e1, -⟩ := idx0 t
  refine congrArg _ (funext fun a => Fin.ext ?_)
  match a with
  | ⟨0, _⟩ => show win0_1.index t (0 : Fin 2) * 2000 + 1 * r.val = 2000 * t.val + r.val; omega
  | ⟨1, _⟩ => show win0_1.index t (1 : Fin 2) * 256 + 1 * k.val = k.val; omega

/-- The degree column's window at point t holds the same rows of the column. -/
theorem rows0_2 (c : Dev nD) (t : Fin cfg0.N) : RowBlk (2000 * t.val) (iblk0 V c 2 t) (V c main_v4) := fun r hr k => by
  show V c main_v4 (((cfg0.win 2).blk t).view.emb (ix2 r k)) = V c main_v4 (ix2 ⟨2000 * t.val + r.val, hr⟩ k)
  obtain ⟨-, -, -, -, e0, e1, -⟩ := idx0 t
  refine congrArg _ (funext fun a => Fin.ext ?_)
  match a with
  | ⟨0, _⟩ => show win0_2.index t (0 : Fin 2) * 2000 + 1 * r.val = 2000 * t.val + r.val; omega
  | ⟨1, _⟩ => show win0_2.index t (1 : Fin 2) * 1 + 1 * k.val = k.val; omega

/-- The weights' and the bias' windows hold their arrays whole at every point. -/
theorem whole0_3 (c : Dev nD) (t : Fin cfg0.N) : iblk0 V c 3 t = V c main_arg3 := funext fun y => by
  show V c main_arg3 (((cfg0.win 3).blk t).view.emb y) = V c main_arg3 y
  obtain ⟨-, -, -, -, -, -, e0, e1, -⟩ := idx0 t
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem whole0_4 (c : Dev nD) (t : Fin cfg0.N) : iblk0 V c 4 t = V c main_arg4 := funext fun y => by
  show V c main_arg4 (((cfg0.win 4).blk t).view.emb y) = V c main_arg4 y
  obtain ⟨-, -, -, -, -, -, -, -, e0, e1, -⟩ := idx0 t
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem whole0_5 (c : Dev nD) (t : Fin cfg0.N) : iblk0 V c 5 t = V c main_v15 := funext fun y => by
  show V c main_v15 (((cfg0.win 5).blk t).view.emb y) = V c main_v15 y
  obtain ⟨-, -, -, -, -, -, -, -, -, -, e0, e1, -⟩ := idx0 t
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- What point t writes back is block t of the first layer of the arrays the region was entered with. -/
theorem flushed0 (c : Dev nD) (t : Fin cfg0.N) :
    (dat0 V c).flushed 6 t = ((cfg0.win 6).blk t).view.read (Elt Ideal)
      (layer1 (V c main_arg0) (V c main_v14) (V c main_v4) (V c main_arg3) (V c main_arg4) (V c main_v15)) := by
  show (cfg0.win 6).cut (grid0.coords t) ((dat0 V c).after 6 t) = _
  rw [after0_6]
  unfold out0_6
  rw [View.canon_unit_zero zeros2]
  simp only [View.ld_unit_zero (S := S2000x256) zeros2, View.ld_unit_zero (S := S2000x1) zeros2,
    View.ld_unit_zero (S := S256x256) zeros2, View.ld_unit_zero (S := S1x256) zeros2]
  rw [whole0_3 V c t, whole0_4 V c t, whole0_5 V c t]
  have key := body1_blk (2000 * t.val) (iblk0 V c 0 t) (iblk0 V c 1 t) (iblk0 V c 2 t) (V c main_arg3) (V c main_arg4) (V c main_v15)
    (V c main_arg0) (V c main_v14) (V c main_v4) (rows0_0 V c t) (rows0_1 V c t) (rows0_2 V c t)
  have ht := lt0 t
  obtain ⟨-, -, -, -, -, -, -, -, -, -, -, -, e0, e1⟩ := idx0 t
  funext j
  have hj0 : (j 0).val < 2000 := (j 0).isLt
  have hrow : 2000 * t.val + (j 0).val < 100000 := by omega
  refine (congrArg (k0_pay1 (F := Ideal) (iblk0 V c 0 t) (iblk0 V c 1 t) (iblk0 V c 2 t) (V c main_arg3) (V c main_arg4) (V c main_v15))
    (eq_ix2 (n0 := 2000) (n1 := 256) j)).trans ((key (j 0) hrow (j 1)).trans ?_)
  refine congrArg (layer1 (V c main_arg0) (V c main_v14) (V c main_v4) (V c main_arg3) (V c main_arg4) (V c main_v15))
    (funext fun a => Fin.ext ?_)
  match a with
  | ⟨0, _⟩ => show 2000 * t.val + (j 0).val = win0_6.index t (0 : Fin 2) * 2000 + 1 * (j 0).val; omega
  | ⟨1, _⟩ => show (j 1).val = win0_6.index t (1 : Fin 2) * 256 + 1 * (j 1).val; omega

/-- An index of the result array is in point t's block iff each coordinate is in the block's range. -/
theorem mem_blk0 (t : Fin cfg0.N) (i : S100000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v16).slice (win0_6.rect t)).set ↔ _
  rw [View.set_slice_whole, Rect.mem_set_unit]
  exact Iff.rfl

/-- Row r of the result is in the block of point r / 2000. -/
theorem cover0 (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  have hN : cfg0.N = 50 := N_0
  let t : Fin cfg0.N := ⟨(i 0).val / 2000, by rw [hN]; omega⟩
  have htv : t.val = (i 0).val / 2000 := rfl
  obtain ⟨-, -, -, -, -, -, -, -, -, -, -, -, e0, e1⟩ := idx0 t
  refine ⟨t, flush0_6 t, (mem_blk0 t i).mpr fun a => ?_⟩
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 256 ≤ (i 1).val ∧ (i 1).val < win0_6.index t (1 : Fin 2) * 256 + 256
    omega

/-- The first region's result array ends as the first layer of the arrays it was entered with. -/
theorem final0 (c : Dev nD) : (dat0 V c).arrAt 6 cfg0.N
    = layer1 (V c main_arg0) (V c main_v14) (V c main_v4) (V c main_arg3) (V c main_arg4) (V c main_v15) :=
  (dat0 V c).arrAt_eq_of_cover 6 _ (fun t _ => flushed0 V c t) (fun i => cover0 i)

/-! ## Region 1 -/

/-- The printed index maps over the grid: the row windows sit at block t, the others at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem lt1 (t : Fin cfg1.N) : t.val < 50 := by
  have h : t.val < grid1.N := t.isLt
  rwa [N_1] at h

/-- The first layer's output, the second region's features: the window at point t holds rows 2000·t … of it. -/
theorem rows1_0 (c : Dev nD) (t : Fin cfg1.N) : RowBlk (2000 * t.val) (iblk1 V c 0 t) (V c main_v16) := fun r hr k => by
  show V c main_v16 (((cfg1.win 0).blk t).view.emb (ix2 r k)) = V c main_v16 (ix2 ⟨2000 * t.val + r.val, hr⟩ k)
  obtain ⟨e0, e1, -⟩ := idx1 t
  refine congrArg _ (funext fun a => Fin.ext ?_)
  match a with
  | ⟨0, _⟩ => show win1_0.index t (0 : Fin 2) * 2000 + 1 * r.val = 2000 * t.val + r.val; omega
  | ⟨1, _⟩ => show win1_0.index t (1 : Fin 2) * 256 + 1 * k.val = k.val; omega

theorem rows1_1 (c : Dev nD) (t : Fin cfg1.N) : RowBlk (2000 * t.val) (iblk1 V c 1 t) (V c main_v27) := fun r hr k => by
  show V c main_v27 (((cfg1.win 1).blk t).view.emb (ix2 r k)) = V c main_v27 (ix2 ⟨2000 * t.val + r.val, hr⟩ k)
  obtain ⟨-, -, e0, e1, -⟩ := idx1 t
  refine congrArg _ (funext fun a => Fin.ext ?_)
  match a with
  | ⟨0, _⟩ => show win1_1.index t (0 : Fin 2) * 2000 + 1 * r.val = 2000 * t.val + r.val; omega
  | ⟨1, _⟩ => show win1_1.index t (1 : Fin 2) * 256 + 1 * k.val = k.val; omega

theorem rows1_2 (c : Dev nD) (t : Fin cfg1.N) : RowBlk (2000 * t.val) (iblk1 V c 2 t) (V c main_v4) := fun r hr k => by
  show V c main_v4 (((cfg1.win 2).blk t).view.emb (ix2 r k)) = V c main_v4 (ix2 ⟨2000 * t.val + r.val, hr⟩ k)
  obtain ⟨-, -, -, -, e0, e1, -⟩ := idx1 t
  refine congrArg _ (funext fun a => Fin.ext ?_)
  match a with
  | ⟨0, _⟩ => show win1_2.index t (0 : Fin 2) * 2000 + 1 * r.val = 2000 * t.val + r.val; omega
  | ⟨1, _⟩ => show win1_2.index t (1 : Fin 2) * 1 + 1 * k.val = k.val; omega

theorem whole1_3 (c : Dev nD) (t : Fin cfg1.N) : iblk1 V c 3 t = V c main_arg6 := funext fun y => by
  show V c main_arg6 (((cfg1.win 3).blk t).view.emb y) = V c main_arg6 y
  obtain ⟨-, -, -, -, -, -, e0, e1, -⟩ := idx1 t
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 128 + 1 * (y 1).val = (y 1).val; omega
theorem whole1_4 (c : Dev nD) (t : Fin cfg1.N) : iblk1 V c 4 t = V c main_arg7 := funext fun y => by
  show V c main_arg7 (((cfg1.win 4).blk t).view.emb y) = V c main_arg7 y
  obtain ⟨-, -, -, -, -, -, -, -, e0, e1, -⟩ := idx1 t
  refine congrArg _ (funext fun a => Fin.ext ?_)
  match a with
  | ⟨0, _⟩ => show win1_4.index t (0 : Fin 2) * 256 + 1 * (y 0).val = (y 0).val; omega
  | ⟨1, _⟩ => show win1_4.index t (1 : Fin 2) * 128 + 1 * (y 1).val = (y 1).val; omega
theorem whole1_5 (c : Dev nD) (t : Fin cfg1.N) : iblk1 V c 5 t = V c main_v28 := funext fun y => by
  show V c main_v28 (((cfg1.win 5).blk t).view.emb y) = V c main_v28 y
  obtain ⟨-, -, -, -, -, -, -, -, -, -, e0, e1, -⟩ := idx1 t
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- What point t writes back is block t of the normalised second layer of the arrays the region was entered with. -/
theorem flushed1 (c : Dev nD) (t : Fin cfg1.N) :
    (dat1 V c).flushed 6 t = ((cfg1.win 6).blk t).view.read (Elt Ideal)
      (unitRows (layer2 (V c main_v16) (V c main_v27) (V c main_v4) (V c main_arg6) (V c main_arg7) (V c main_v28))) := by
  show (cfg1.win 6).cut (grid1.coords t) ((dat1 V c).after 6 t) = _
  rw [after1_6]
  unfold out1_6
  rw [View.canon_unit_zero zeros2]
  simp only [View.ld_unit_zero (S := S2000x256) zeros2, View.ld_unit_zero (S := S2000x1) zeros2,
    View.ld_unit_zero (S := S256x128) zeros2, View.ld_unit_zero (S := S1x128) zeros2]
  rw [whole1_3 V c t, whole1_4 V c t, whole1_5 V c t]
  have key := body2_blk (2000 * t.val) (iblk1 V c 0 t) (iblk1 V c 1 t) (iblk1 V c 2 t) (V c main_arg6) (V c main_arg7) (V c main_v28)
    (V c main_v16) (V c main_v27) (V c main_v4) (rows1_0 V c t) (rows1_1 V c t) (rows1_2 V c t)
  have ht := lt1 t
  obtain ⟨-, -, -, -, -, -, -, -, -, -, -, -, e0, e1⟩ := idx1 t
  funext j
  have hj0 : (j 0).val < 2000 := (j 0).isLt
  have hrow : 2000 * t.val + (j 0).val < 100000 := by omega
  refine (congrArg (k1_pay1 (F := Ideal) (iblk1 V c 0 t) (iblk1 V c 1 t) (iblk1 V c 2 t) (V c main_arg6) (V c main_arg7) (V c main_v28))
    (eq_ix2 (n0 := 2000) (n1 := 128) j)).trans ((key (j 0) hrow (j 1)).trans ?_)
  refine congrArg (unitRows (layer2 (V c main_v16) (V c main_v27) (V c main_v4) (V c main_arg6) (V c main_arg7) (V c main_v28)))
    (funext fun a => Fin.ext ?_)
  match a with
  | ⟨0, _⟩ => show 2000 * t.val + (j 0).val = win1_6.index t (0 : Fin 2) * 2000 + 1 * (j 0).val; omega
  | ⟨1, _⟩ => show (j 1).val = win1_6.index t (1 : Fin 2) * 128 + 1 * (j 1).val; omega

theorem mem_blk1 (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v29).slice (win1_6.rect t)).set ↔ _
  rw [View.set_slice_whole, Rect.mem_set_unit]
  exact Iff.rfl

theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  have htv : t.val = (i 0).val / 2000 := rfl
  obtain ⟨-, -, -, -, -, -, -, -, -, -, -, -, e0, e1⟩ := idx1 t
  refine ⟨t, flush1_6 t, (mem_blk1 t i).mpr fun a => ?_⟩
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

/-- The second region's result array ends as the normalised second layer of the arrays it was entered with. -/
theorem final1 (c : Dev nD) : (dat1 V c).arrAt 6 cfg1.N
    = unitRows (layer2 (V c main_v16) (V c main_v27) (V c main_v4) (V c main_arg6) (V c main_arg7) (V c main_v28)) :=
  (dat1 V c).arrAt_eq_of_cover 6 _ (fun t _ => flushed1 V c t) (fun i => cover1 i)

end Cert.Sage

end
-- ==== Proof.Value.lean ====
/-
  The idealized kernel's result as one function of its arguments.

  Following the program from the launch: the host computes the in-degrees (a scatter-add of ones, reshaped to a
  column), the first neighbour sums (a gather of the features along the edges' sources, scatter-added at their
  destinations) and the bias as a row; the first region leaves the first layer of these; the host gathers and
  scatter-adds the first layer's output in the same way and reshapes the second bias; the second region leaves the
  normalised second layer. The two host computations along the edges are named by the stages the reference's own
  reading gives them (the in-degree vector and the neighbour sum of a feature array): the kernel's host lines
  are the same operations with the same dimension numbers.
-/
import proofs.«179732_j18906446037603_2_alg».proof.Proof.Whole
import proofs.«179732_j18906446037603_2_alg».proof.Proof.Blocks

set_option maxRecDepth 16384

noncomputable section

namespace Cert.Sage

open Idealize.ShloMosaic Idealize.ShloMosaic.TcCoe Idealize.ShloMosaic.ValueIdx Idealize.SL.Sem Idealize.ShloMosaic.StableHlo
open Cert.Lib.DenseLayer Cert.KernelIdeal Cert.KernelIdeal.Gen
open Cert.ReferenceIdeal.Read (val_main_v3 val_main_v13)

variable (m : (ℓ : Loc nD τ sig) → Buf (Elt Ideal) ℓ) (ρ : Dev nD → PrngReg)

/-! ## The first region's entry contents -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg3 (c : Dev nD) : V1 m ρ c main_arg3 = m ((c : Thread nD τ).loc main_arg3) := by
  show StableHlo.after hostOps0 (W0 m ρ c) (Proc.devRef .tc main_arg3) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_v14 (c : Dev nD) : V1 m ρ c main_v14
    = val_main_v13 (F := Ideal) (m ((c : Thread nD τ).loc main_arg0)) (m ((c : Thread nD τ).loc main_arg1)) (m ((c : Thread nD τ).loc main_arg2)) := by
  show StableHlo.after hostOps0 (W0 m ρ c) (Proc.devRef .tc main_v14) = _
  after_results <;> rfl
theorem V1_v4 (c : Dev nD) : V1 m ρ c main_v4
    = degCol (m ((c : Thread nD τ).loc main_arg2)) := by
  show StableHlo.after hostOps0 (W0 m ρ c) (Proc.devRef .tc main_v4) = _
  after_results <;> rfl
theorem V1_v15 (c : Dev nD) : V1 m ρ c main_v15 = shapeCast S1x256 (m ((c : Thread nD τ).loc main_arg5)) Facts₀.shapeCasts_S256_S1x256 := by
  show StableHlo.after hostOps0 (W0 m ρ c) (Proc.devRef .tc main_v15) = _
  after_results <;> rfl

/-! ## The first region's exit contents -/

/-- The first region leaves the first layer's output in its result array. -/
theorem W2_v16 (c : Dev nD) : W2 m ρ c (Proc.devRef .tc main_v16)
    = hidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 6).trans ((final0 (V1 m ρ) c).trans ?_)
  rw [V1_arg0, V1_v14, V1_v4, V1_arg3, V1_arg4, V1_v15]
  rfl

/-- The degree column is an input of the first region: it is there unchanged at the exit. -/
theorem W2_v4 (c : Dev nD) : W2 m ρ c (Proc.devRef .tc main_v4) = degCol (m ((c : Thread nD τ).loc main_arg2)) :=
  ((W2_arr m ρ c 2).trans (((dat0 (V1 m ρ) c).arrAt_in 2 rfl _).trans (A_eq0 (V1 m ρ) c 2))).trans (V1_v4 m ρ c)

theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results <;> rfl
theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results <;> rfl
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results <;> rfl
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results <;> rfl
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results <;> rfl

/-! ## The second region's entry contents -/

theorem V3_v16 (c : Dev nD) : V3 m ρ c main_v16 = W2 m ρ c (Proc.devRef .tc main_v16) := by
  show StableHlo.after hostOps1 (W2 m ρ c) (Proc.devRef .tc main_v16) = _
  after_results <;> rfl
theorem V3_v4 (c : Dev nD) : V3 m ρ c main_v4 = W2 m ρ c (Proc.devRef .tc main_v4) := by
  show StableHlo.after hostOps1 (W2 m ρ c) (Proc.devRef .tc main_v4) = _
  after_results <;> rfl
theorem V3_arg6 (c : Dev nD) : V3 m ρ c main_arg6 = W2 m ρ c (Proc.devRef .tc main_arg6) := by
  show StableHlo.after hostOps1 (W2 m ρ c) (Proc.devRef .tc main_arg6) = _
  after_results <;> rfl
theorem V3_arg7 (c : Dev nD) : V3 m ρ c main_arg7 = W2 m ρ c (Proc.devRef .tc main_arg7) := by
  show StableHlo.after hostOps1 (W2 m ρ c) (Proc.devRef .tc main_arg7) = _
  after_results <;> rfl
/-- The second neighbour sums: the neighbour sum of the first region's result. -/
theorem V3_v27 (c : Dev nD) : V3 m ρ c main_v27
    = val_main_v13 (F := Ideal) (W2 m ρ c (Proc.devRef .tc main_v16)) (W2 m ρ c (Proc.devRef .tc main_arg1)) (W2 m ρ c (Proc.devRef .tc main_arg2)) := by
  show StableHlo.after hostOps1 (W2 m ρ c) (Proc.devRef .tc main_v27) = _
  after_results <;> rfl
theorem V3_v28 (c : Dev nD) : V3 m ρ c main_v28 = shapeCast S1x128 (W2 m ρ c (Proc.devRef .tc main_arg8)) Facts₀.shapeCasts_S128_S1x128 := by
  show StableHlo.after hostOps1 (W2 m ρ c) (Proc.devRef .tc main_v28) = _
  after_results <;> rfl

/-! ## The result -/

/-- The result array ends as the whole computation on the launch contents of the nine arguments. -/
theorem result (c : Dev nD) : W4 m ρ c (Proc.devRef .tc main_v29)
    = sage (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 6).trans ((final1 (V3 m ρ) c).trans ?_)
  rw [V3_v16, V3_v27, V3_v4, V3_arg6, V3_arg7, V3_v28, W2_v16, W2_v4, W2_arg1, W2_arg2, W2_arg6, W2_arg7, W2_arg8]
  rfl

end Cert.Sage

end
-- ==== Proof.RefValue.lean ====
/-
  The reference computes the same function.

  The reference takes the in-degrees' floor 1 on the vector before making it a column, and makes each bias a row by
  a broadcast along a new unit axis where the kernel's host side reshapes; both pairs of spellings give one array.
  Everything else — the products, the division by the degree column, the sums, the rectifier, the neighbour sums of
  the first layer's output, the normalisation — is operation for operation the layer as written.
-/
import proofs.«179732_j18906446037603_2_alg».proof.Proof.Whole

set_option maxRecDepth 16384

noncomputable section

namespace Cert.Sage

open Idealize.ShloMosaic Cert.Lib.DenseLayer
open Cert.ReferenceIdeal Cert.ReferenceIdeal.Facts₀ Cert.ReferenceIdeal.Read

variable (x0 : (⟨S100000x256, .f32⟩ : BufTy).Contents (Elt Ideal)) (x1 x2 : (⟨S800000, .i32⟩ : BufTy).Contents (Elt Ideal))
  (x3 x4 : (⟨S256x256, .f32⟩ : BufTy).Contents (Elt Ideal)) (x5 : (⟨S256, .f32⟩ : BufTy).Contents (Elt Ideal))
  (x6 x7 : (⟨S256x128, .f32⟩ : BufTy).Contents (Elt Ideal)) (x8 : (⟨S128, .f32⟩ : BufTy).Contents (Elt Ideal))

/-- The reference's first rectified layer is the first layer's output. -/
theorem ref_hidden : val_main_v25 (F := Ideal) x0 x1 x2 x3 x4 x5 = hidden x0 x1 x2 x3 x4 x5 := by
  unfold hidden degCol layer1 layer
  rw [← column_max (M := 100000) (by decide) (val_main_v3 (F := Ideal) x2) Cert.KernelIdeal.Facts₀.shapeCasts_S100000_S100000x1
      bcast_S100000_S100000x1_0 bcast_S_S100000 bcast_S_S100000x1 0x3F800000#32,
    addUnit_eq_bcast (n := 256) (by decide) x5 Cert.KernelIdeal.Facts₀.shapeCasts_S256_S1x256 bcast_S256_S1x256_1]
  rfl

/-- The reference's second rectified layer is the second layer of the first layer's output. -/
theorem ref_layer2 : val_main_v51 (F := Ideal) x0 x1 x2 x3 x4 x5 x6 x7 x8
    = layer2 (val_main_v25 (F := Ideal) x0 x1 x2 x3 x4 x5) (val_main_v13 (F := Ideal) (val_main_v25 (F := Ideal) x0 x1 x2 x3 x4 x5) x1 x2)
        (degCol x2) x6 x7 (shapeCast Cert.KernelIdeal.S1x128 x8 Cert.KernelIdeal.Facts₀.shapeCasts_S128_S1x128) := by
  unfold degCol layer2 layer
  rw [← column_max (M := 100000) (by decide) (val_main_v3 (F := Ideal) x2) Cert.KernelIdeal.Facts₀.shapeCasts_S100000_S100000x1
      bcast_S100000_S100000x1_0 bcast_S_S100000 bcast_S_S100000x1 0x3F800000#32,
    addUnit_eq_bcast (n := 128) (by decide) x8 Cert.KernelIdeal.Facts₀.shapeCasts_S128_S1x128 bcast_S128_S1x128_1]
  rfl

/-- The reference's result is the whole computation. -/
theorem ref_eq : val_main_v56 (F := Ideal) x0 x1 x2 x3 x4 x5 x6 x7 x8 = sage x0 x1 x2 x3 x4 x5 x6 x7 x8 := by
  unfold sage
  rw [← ref_hidden x0 x1 x2 x3 x4 x5, ← ref_layer2 x0 x1 x2 x3 x4 x5 x6 x7 x8]
  rfl

end Cert.Sage

end
-- ==== Proof.lean ====
/-
  A two-layer graph network with mean aggregation and normalised output rows, as a pipelined kernel and as a plain
  array program: the two compute the same array at the extended reals.

  Each layer is max (H · Ws + (Ms / max (D, 1)) · Wn + b, 0) on the node features H, the neighbour sums Ms (the
  features gathered along the edges' sources and summed at their destinations), the in-degrees D and the layer's
  weights and bias; the second layer takes the first layer's output for its features, and its rows are divided by
  max (their Euclidean length, eps) at the end. The kernel computes each layer in a region of fifty grid points, one
  block of 2000 rows at a point, the host lines between the regions computing the degrees and the neighbour sums;
  the reference computes the layers on whole arrays. Every operation of a layer acts on each row by itself, the
  blocks tile the rows, and the host computations along the edges are the same operations on both sides; the kernel's
  changes of float format are the identity on extended reals, and its matrix products into a zero accumulator are
  the reference's products. No law of arithmetic beyond the equality of these sums and products is used, so the
  precondition that the inputs are finite is never opened.

  The frames of the two kernel programs are the generated ones; the reference's is its generated run with the
  result dropped; the ideal pass rewrote nothing, so there is nothing to preserve.
-/
import proofs.«179732_j18906446037603_2_alg».proof.Defs
import proofs.«179732_j18906446037603_2_alg».proof.Proof.Gen.Kernel
import proofs.«179732_j18906446037603_2_alg».proof.Proof.Gen.Kernel.Skeleton
import proofs.«179732_j18906446037603_2_alg».proof.Proof.Gen.Kernel.Launch
import proofs.«179732_j18906446037603_2_alg».proof.Proof.Gen.Kernel.Points
import proofs.«179732_j18906446037603_2_alg».proof.Proof.Gen.Kernel.Frame
import proofs.«179732_j18906446037603_2_alg».proof.Proof.Gen.KernelIdeal
import proofs.«179732_j18906446037603_2_alg».proof.Proof.Gen.KernelIdeal.Skeleton
import proofs.«179732_j18906446037603_2_alg».proof.Proof.Gen.KernelIdeal.Launch
import proofs.«179732_j18906446037603_2_alg».proof.Proof.Gen.KernelIdeal.Points
import proofs.«179732_j18906446037603_2_alg».proof.Proof.Gen.KernelIdeal.Frame
import proofs.«179732_j18906446037603_2_alg».proof.Proof.Gen.ReferenceIdeal
import proofs.«179732_j18906446037603_2_alg».proof.Proof.Gen.Pre_finite_inputs
import proofs.«179732_j18906446037603_2_alg».proof.Proof.Gen.ReferenceIdeal.Run
import proofs.«179732_j18906446037603_2_alg».proof.Proof.Gen.ReferenceIdeal.Read
import proofs.«179732_j18906446037603_2_alg».proof.Proof.KernelRun
import proofs.«179732_j18906446037603_2_alg».proof.Proof.Value
import proofs.«179732_j18906446037603_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the whole computation on the arguments' launch contents in their result arrays: the
    kernel by its run read region by region, the reference by its run read operation by operation; the arguments
    agree. -/
theorem algebraic : Cert.algebraic_KernelIdeal_ReferenceIdeal := by
  intro m ρ m' ρ' _ hagree
  refine ⟨fun c => Cert.Sage.sage
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun _ h c => ⟨(h c).1.trans (Cert.Sage.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v56_eq, Cert.Sage.ref_eq, (hagree c).1, (hagree c).2.1, (hagree c).2.2.1,
      (hagree c).2.2.2.1, (hagree c).2.2.2.2.1, (hagree c).2.2.2.2.2.1, (hagree c).2.2.2.2.2.2.1,
      (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
